-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S32x64 .f32) (main_arg6 : FVec F S32 .f32) (main_arg7 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S5000x64 : Shape := ⟨2, ![5000, 64]⟩
abbrev S5000x1 : Shape := ⟨2, ![5000, 1]⟩
abbrev S64x32 : Shape := ⟨2, ![64, 32]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 59
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S64x64, .f32⟩
  | .hbm, ⟨39, _⟩ => ⟨S64x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S64x32, .f32⟩
  | .hbm, ⟨56, _⟩ => ⟨S64x32, .f32⟩
  | .hbm, ⟨57, _⟩ => ⟨S1x32, .f32⟩
  | .hbm, ⟨58, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x32, .f32⟩
  | .local _ .vmem, ⟨18, _⟩ => ⟨S1x32, .f32⟩
  | .local _ .vmem, ⟨19, _⟩ => ⟨S64x32, .f32⟩
  | .local _ .vmem, ⟨20, _⟩ => ⟨S5000x32, .f32⟩
  | .local _ .vmem, ⟨21, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1200000, .i32⟩
  | .hbm, ⟨50, _⟩ => ⟨S1200000, .i1⟩
  | .hbm, ⟨51, _⟩ => ⟨S_, .i32⟩
  | .hbm, ⟨52, _⟩ => ⟨S1200000, .i32⟩
  | .hbm, ⟨53, _⟩ => ⟨S1200000, .i32⟩
  | .hbm, ⟨54, _⟩ => ⟨S1200000, .i32⟩
  | .hbm, ⟨55, _⟩ => ⟨S1200000x1, .i32⟩
  | .hbm, ⟨56, _⟩ => ⟨S1200000x64, .f32⟩
  | .hbm, ⟨57, _⟩ => ⟨S_, .f32⟩
  | .hbm, ⟨58, _⟩ => ⟨S100000x64, .f32⟩
  | .hbm, ⟨59, _⟩ => ⟨S1200000x1, .i32⟩
  | .hbm, ⟨60, _⟩ => ⟨S100000x64, .f32⟩
  | .hbm, ⟨61, _⟩ => ⟨S_, .f32⟩
  | .hbm, ⟨62, _⟩ => ⟨S1200000, .f32⟩
  | .hbm, ⟨63, _⟩ => ⟨S_, .f32⟩
  | .hbm, ⟨64, _⟩ => ⟨S100000, .f32⟩
  | .hbm, ⟨65, _⟩ => ⟨S1200000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S64x32, .f32⟩
  | .hbm, ⟨79, _⟩ => ⟨S100000x32, .f32⟩
  | .hbm, ⟨80, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibUnitAxisLayout.lean ====
/-
  Unit axes added, dropped and spread: four layout operations read at an index given by coordinates, generic in the
  extents.  A `[1, 1, a, b]` array read as `[a, b]` is the array at `(0, 0, i, j)`, and back; an `[a]` array read as a
  column `[a, 1]` is the array at `i`; a column `[a, 1]` spread over `[a, b]` is the column at `(p, 0)`.  (The forms a
  reduction with kept dimensions meets: a row reduction's result as a column, spread back over the row.)  Each is the
  general read-at-an-index lemma of its operation with the row-major arithmetic of the two indices discharged.
-/
import Idealize.ShloMosaic.Lib.ValueIdx
import Idealize.ShloMosaic.Lib.ValueLayout
import Idealize.ShloMosaic.Lib.Pipeline.Value

namespace Idealize.ShloMosaic.ValueIdx

open Idealize.ShloMosaic

variable {α : Type}

/-! ## Unit axes added, dropped and spread: four layout operations at an index given by coordinates -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.Combine.lean ====
/-
  One SAGE layer's combine step, read at one node and one output feature.

  A grid point of either kernel region holds a block of 5000 nodes: the block `a` of neighbour sums (5000 × 64), the block `s`
  of reciprocal degrees as a column (5000 × 1), the block `x` of the nodes' own features (5000 × 64), and the whole weights
  `wl`, `wr` (64 × D) and bias row `b` (1 × D).  What it stores for node `p` of the block and output feature `q` is

      (Σ_k (a[p,k] · s[p,0]) · wl[k,q]) + b[0,q] + Σ_k x[p,k] · wr[k,q],

  clipped below at 0 in the first layer (D = 64) and as it is in the second (D = 32): the column of reciprocal degrees is
  spread over the 64 features before the product, each matrix product into a zero accumulator is the plain sum over the 64
  input features, and the bias row is spread over the 5000 nodes.
-/
import proofs.«140291_j5686536700292_2_alg».proof.Proof.Gen.KernelIdeal.Skeleton
import proofs.«140291_j5686536700292_2_alg».proof.Proof.LibUnitAxisLayout
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Sage

open Cert.KernelIdeal Cert.KernelIdeal.Gen

/-! ## The two matrix products at an index -/

/-- Output row of the left operand: the dot keeps axis 0 of its left operand. -/
theorem lhs_h_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_h_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_h_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_h_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000, 64] block times a [64, 64] weight into the zero accumulator, read at row `p` and column `q`: the sum over
    the 64 input features of the block's row entry times the weight's column entry. -/
theorem matmul_h_apply (l : FVec Ideal S5000x64 .f32) (r : FVec Ideal S64x64 .f32) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_h_0 _ _
    | ⟨1, _⟩ => exact (lhs_h_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_h_0 _ _).trans hk
    | ⟨1, _⟩ => exact rhs_h_1 _ _)
  rw [el, er]

/-- Output row of the left operand: the dot keeps axis 0 of its left operand. -/
theorem lhs_o_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_o_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_o_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_o_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A [5000, 64] block times a [64, 32] weight into the zero accumulator, read at row `p` and column `q`: the sum over
    the 64 input features of the block's row entry times the weight's column entry. -/
theorem matmul_o_apply (l : FVec Ideal S5000x64 .f32) (r : FVec Ideal S64x32 .f32) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs_o_0 _ _
    | ⟨1, _⟩ => exact (lhs_o_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs_o_0 _ _).trans hk
    | ⟨1, _⟩ => exact rhs_o_1 _ _)
  rw [el, er]

/-! ## The two bodies at an index -/

/-- The first layer's stored value at node `p` of the block and hidden feature `q`. -/
theorem pay0_apply (a : Vec Ideal S5000x64 .f32) (s : Vec Ideal S5000x1 .f32) (x : Vec Ideal S5000x64 .f32)
    (wl : Vec Ideal S64x64 .f32) (b : Vec Ideal S1x64 .f32) (wr : Vec Ideal S64x64 .f32) (p : Fin 5000) (q : Fin 64) :
    k0_pay1 (F := Ideal) a s x wl b wr (ix2 p q)
      = max (((∑ k : Fin 64, (a (ix2 p k) * s (ix2 p (0 : Fin 1))) * wl (ix2 k q)) + b (ix2 (0 : Fin 1) q))
              + ∑ k : Fin 64, x (ix2 p k) * wr (ix2 k q)) 0 := by
  unfold k0_pay1
  simp only [shapeCast_self]
  rw [maximumf_apply, addf_apply, addf_apply, matmul_h_apply, matmul_h_apply, broadcastTo_1b_ab_apply, broadcast_apply]
  simp only [mulf_apply, broadcastTo_a1_ab_apply]
  exact congrArg (max _) Ideal.ofBits_zero_f32

/-- The second layer's stored value at node `p` of the block and output feature `q`. -/
theorem pay1_apply (a : Vec Ideal S5000x64 .f32) (s : Vec Ideal S5000x1 .f32) (x : Vec Ideal S5000x64 .f32)
    (wl : Vec Ideal S64x32 .f32) (b : Vec Ideal S1x32 .f32) (wr : Vec Ideal S64x32 .f32) (p : Fin 5000) (q : Fin 32) :
    k1_pay1 (F := Ideal) a s x wl b wr (ix2 p q)
      = ((∑ k : Fin 64, (a (ix2 p k) * s (ix2 p (0 : Fin 1))) * wl (ix2 k q)) + b (ix2 (0 : Fin 1) q))
          + ∑ k : Fin 64, x (ix2 p k) * wr (ix2 k q) := by
  unfold k1_pay1
  simp only [shapeCast_self]
  rw [addf_apply, addf_apply, matmul_o_apply, matmul_o_apply, broadcastTo_1b_ab_apply]
  simp only [mulf_apply, broadcastTo_a1_ab_apply]

end Cert.KernelIdeal.Sage

end
-- ==== Proof.Layer.lean ====
/-
  One SAGE layer as a function of whole arrays, and the one law that joins the two programs.

  For a node `r` and an output feature `q`, with `A` the neighbour sums (100000 × 64), `X` the nodes' own features
  (100000 × 64), `S` a per-node scale as a column (100000 × 1), weights `Wl`, `Wr` (64 × D) and a bias row `B` (1 × D):

      combineAt A X S Wl B Wr r q = (Σ_k (A[r,k] · S[r,0]) · Wl[k,q]) + B[0,q] + Σ_k X[r,k] · Wr[k,q].

  The first layer clips this below at 0; the second does not.  One program scales the neighbour sums by the reciprocal
  `1 / d` of the clipped degree `d = max(deg, 1)`; the other divides them by `d`.  On the extended reals the quotient by a
  `d ≠ 0` is the product with `d⁻¹`, so `a · (1 / d) = a / d` for EVERY `a`, infinite or not; and `max(deg, 1) ≥ 1` is never 0.
  No finiteness of any input is used.
-/
import Idealize.ShloMosaic.PureOps.Ideal
import Idealize.ShloMosaic.Lib.ValueIdx

noncomputable section

open Idealize.ShloMosaic Idealize.ShloMosaic.ValueIdx

namespace Sage

/-- An `a × b` array of extended reals. -/
abbrev Arr (a b : ℕ) : Type := (⟨2, ![a, b]⟩ : Shape).Idx → EReal

/-- The combine step at node `r` and output feature `q`. -/
def combineAt {D : ℕ} (A X : Arr 100000 64) (S : Arr 100000 1) (Wl : Arr 64 D) (B : Arr 1 D) (Wr : Arr 64 D)
    (r : Fin 100000) (q : Fin D) : EReal :=
  ((∑ k : Fin 64, (A (ix2 r k) * S (ix2 r (0 : Fin 1))) * Wl (ix2 k q)) + B (ix2 (0 : Fin 1) q))
    + ∑ k : Fin 64, X (ix2 r k) * Wr (ix2 k q)

/-- The first layer: the combine step clipped below at 0, over all nodes and hidden features. -/
def layerRelu (A X : Arr 100000 64) (S : Arr 100000 1) (Wl : Arr 64 64) (B : Arr 1 64) (Wr : Arr 64 64) : Arr 100000 64 :=
  fun i => max (combineAt A X S Wl B Wr (i 0) (i 1)) 0

/-- The second layer: the combine step as it is, over all nodes and output features. -/
def layerLin (A X : Arr 100000 64) (S : Arr 100000 1) (Wl : Arr 64 32) (B : Arr 1 32) (Wr : Arr 64 32) : Arr 100000 32 :=
  fun i => combineAt A X S Wl B Wr (i 0) (i 1)

/-- The first layer read at node `r` and hidden feature `q`. -/
theorem layerRelu_apply (A X : Arr 100000 64) (S : Arr 100000 1) (Wl : Arr 64 64) (B : Arr 1 64) (Wr : Arr 64 64)
    (r : Fin 100000) (q : Fin 64) : layerRelu A X S Wl B Wr (ix2 r q) = max (combineAt A X S Wl B Wr r q) 0 := rfl

/-- The second layer read at node `r` and output feature `q`. -/
theorem layerLin_apply (A X : Arr 100000 64) (S : Arr 100000 1) (Wl : Arr 64 32) (B : Arr 1 32) (Wr : Arr 64 32)
    (r : Fin 100000) (q : Fin 32) : layerLin A X S Wl B Wr (ix2 r q) = combineAt A X S Wl B Wr r q := rfl

/-- The host's quotient of two arrays, read at an index. -/
theorem hostDivf_apply {s : Shape} (a b : FVec Ideal s .f32) (i : s.Idx) : Host.divf a b i = Ideal.div (a i) (b i) := rfl

/-- Scaling by the reciprocal of a nonzero `d` is dividing by `d`, for every extended real `a`. -/
theorem mul_one_div (a d : EReal) (hd : d ≠ 0) : a * Ideal.div 1 d = Ideal.div a d := by
  unfold Ideal.div
  rw [if_neg hd, if_neg hd, one_mul]

/-- The f32 word of `1.0` (sign 0, exponent field 127, fraction 0) denotes the extended real 1: `2^23 · 2^(127 - 127 - 23)`. -/
theorem ofBits_one_f32 : Ideal.ofBits .f32 0x3F800000#32 = 1 := by
  simp [Ideal.ofBits, Ideal.ieee]
  norm_num
  rw [← EReal.coe_mul]
  norm_num

/-- A degree clipped below at 1 is never 0. -/
theorem max_one_ne_zero (x : EReal) : max x 1 ≠ 0 := by
  have h : (0 : EReal) < max x 1 := lt_of_lt_of_le zero_lt_one (le_max_right x 1)
  exact ne_of_gt h

end Sage

end
-- ==== Proof.Blocks0.lean ====
/-
  The first region's output array as ONE function of the arrays the region finds.

  The grid has twenty points; point `t` holds nodes `5000·t … 5000·t + 4999`.  Each per-node window (neighbour sums, own features,
  the column of scales) and the output move with `t` on the node axis; the two weights and the bias row are one block.  So what
  point `t` writes back is block `t` of the first layer's function of the whole arrays (the stored value read at a node and a
  feature, each block entry read at its place in its array), the twenty blocks tile the 100000 nodes, and the array ends
  holding that function everywhere.  Stated for any contents `V` at the region's entry.
-/
import proofs.«140291_j5686536700292_2_alg».proof.Proof.Gen.KernelIdeal.Frame
import proofs.«140291_j5686536700292_2_alg».proof.Proof.Combine
import proofs.«140291_j5686536700292_2_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sage

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- There are twenty grid points. -/
theorem lt20_0 (t : Fin cfg0.N) : t.val < 20 :=
  lt_of_lt_of_eq t.isLt N_0

/-- The node that row `p` of point `t`'s block is: the block starts at node 5000·t. -/
def row0 (t : Fin cfg0.N) (p : Fin 5000) : Fin 100000 :=
  ⟨5000 * t.val + p.val, by have := lt20_0 t; have := p.isLt; omega⟩

/-- The printed index maps over the grid: the three per-node windows and the output sit at block row `t`, column block 0;
    the weights and the bias are one block, always block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each window's block, read where the output's row says -/

/-- Row `p` of the block of neighbour sums is node `5000·t + p`'s row of the array. -/
theorem read0_A (c : Dev nD) (t : Fin cfg0.N) (p : Fin 5000) (k : Fin 64) :
    (iblk0 V c 0 t : Vec Ideal S5000x64 .f32) (ix2 p k) = (V c main_v22 : S100000x64.Idx → EReal) (ix2 (row0 t p) k) := by
  obtain ⟨e0, e1, -⟩ := idx_facts0 t
  show (V c main_v22 : S100000x64.Idx → EReal) (((cfg0.win 0).blk t).view.emb (ix2 p k)) = _
  refine congrArg (V c main_v22 : S100000x64.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- Row `p` of the block of the nodes' own features is node `5000·t + p`'s row of the array. -/
theorem read0_X (c : Dev nD) (t : Fin cfg0.N) (p : Fin 5000) (k : Fin 64) :
    (iblk0 V c 1 t : Vec Ideal S5000x64 .f32) (ix2 p k) = (V c main_arg0 : S100000x64.Idx → EReal) (ix2 (row0 t p) k) := by
  obtain ⟨-, -, e0, e1, -⟩ := idx_facts0 t
  show (V c main_arg0 : S100000x64.Idx → EReal) (((cfg0.win 1).blk t).view.emb (ix2 p k)) = _
  refine congrArg (V c main_arg0 : S100000x64.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- Row `p` of the block of per-node scales is node `5000·t + p`'s entry of the column. -/
theorem read0_S (c : Dev nD) (t : Fin cfg0.N) (p : Fin 5000) :
    (iblk0 V c 2 t : Vec Ideal S5000x1 .f32) (ix2 p (0 : Fin 1)) = (V c main_v12 : S100000x1.Idx → EReal) (ix2 (row0 t p) (0 : Fin 1)) := by
  obtain ⟨-, -, -, -, e0, e1, -⟩ := idx_facts0 t
  show (V c main_v12 : S100000x1.Idx → EReal) (((cfg0.win 2).blk t).view.emb (ix2 p (0 : Fin 1))) = _
  refine congrArg (V c main_v12 : S100000x1.Idx → EReal) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 1 + 1 * 0 = 0; rw [e1]

/-- The neighbour weight's one block is the whole weight. -/
theorem read0_Wl (c : Dev nD) (t : Fin cfg0.N) (k : Fin 64) (q : Fin 64) :
    (iblk0 V c 3 t : Vec Ideal S64x64 .f32) (ix2 k q) = (V c main_v23 : S64x64.Idx → EReal) (ix2 k q) := by
  obtain ⟨-, -, -, -, -, -, e0, e1, -⟩ := idx_facts0 t
  show (V c main_v23 : S64x64.Idx → EReal) (((cfg0.win 3).blk t).view.emb (ix2 k q)) = _
  refine congrArg (V c main_v23 : S64x64.Idx → EReal) (funext fun a => Fin.ext ?_)
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- The bias row's one block is the whole row. -/
theorem read0_B (c : Dev nD) (t : Fin cfg0.N) (q : Fin 64) :
    (iblk0 V c 4 t : Vec Ideal S1x64 .f32) (ix2 (0 : Fin 1) q) = (V c main_v25 : S1x64.Idx → EReal) (ix2 (0 : Fin 1) q) := by
  obtain ⟨-, -, -, -, -, -, -, -, e0, e1, -⟩ := idx_facts0 t
  show (V c main_v25 : S1x64.Idx → EReal) (((cfg0.win 4).blk t).view.emb (ix2 (0 : Fin 1) q)) = _
  refine congrArg (V c main_v25 : S1x64.Idx → EReal) (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- The own-feature weight's one block is the whole weight. -/
theorem read0_Wr (c : Dev nD) (t : Fin cfg0.N) (k : Fin 64) (q : Fin 64) :
    (iblk0 V c 5 t : Vec Ideal S64x64 .f32) (ix2 k q) = (V c main_v24 : S64x64.Idx → EReal) (ix2 k q) := by
  obtain ⟨-, -, -, -, -, -, -, -, -, -, e0, e1, -⟩ := idx_facts0 t
  show (V c main_v24 : S64x64.Idx → EReal) (((cfg0.win 5).blk t).view.emb (ix2 k q)) = _
  refine congrArg (V c main_v24 : S64x64.Idx → EReal) (funext fun a => Fin.ext ?_)
  match a with
  | ⟨0, _⟩ => show win0_5.index t (0 : Fin 2) * 64 + 1 * k.val = k.val; rw [e0]; omega
  | ⟨1, _⟩ => show win0_5.index t (1 : Fin 2) * 64 + 1 * q.val = q.val; rw [e1]; omega

/-- Entry `(p, q)` of point `t`'s output block sits at node `5000·t + p`, feature `q` of the output array. -/
theorem emb0_out (t : Fin cfg0.N) (p : Fin 5000) (q : Fin 64) :
    (((cfg0.win 6).blk t).view.emb (ix2 p q) : S100000x64.Idx) = ix2 (row0 t p) q := by
  obtain ⟨-, -, -, -, -, -, -, -, -, -, -, -, e0, e1⟩ := idx_facts0 t
  refine funext fun a => Fin.ext ?_
  match a with
  | ⟨0, _⟩ => show win0_6.index t (0 : Fin 2) * 5000 + 1 * p.val = 5000 * t.val + p.val; rw [e0]; omega
  | ⟨1, _⟩ => show win0_6.index t (1 : Fin 2) * 64 + 1 * q.val = q.val; rw [e1]; omega

/-! ## What a point writes back, and the whole array -/

/-- What point `t` writes back is block `t` of the layer's function of the arrays as the region finds them. -/
theorem flushed0_eq (c : Dev nD) (t : Fin cfg0.N) :
    (dat0 V c).flushed 6 t = ((cfg0.win 6).blk t).view.read (Elt Ideal)
      (Sage.layerRelu (V c main_v22) (V c main_arg0) (V c main_v12) (V c main_v23) (V c main_v25) (V c main_v24)) := by
  show (cfg0.win 6).cut (grid0.coords t) ((dat0 V c).after 6 t) = _
  rw [after0_6]
  unfold out0_6
  rw [View.canon_unit_zero hz0]
  simp only [View.ld_unit_zero (S := S5000x64) hz0, View.ld_unit_zero (S := S5000x1) hz0, View.ld_unit_zero (S := S64x64) hz0, View.ld_unit_zero (S := S1x64) hz0]
  funext j
  obtain ⟨p, q, rfl⟩ : ∃ (p : Fin 5000) (q : Fin 64), j = ix2 p q := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 p q)
    = Sage.layerRelu (V c main_v22) (V c main_arg0) (V c main_v12) (V c main_v23) (V c main_v25) (V c main_v24) (((cfg0.win 6).blk t).view.emb (ix2 p q))
  refine (pay0_apply (iblk0 V c 0 t) (iblk0 V c 2 t) (iblk0 V c 1 t) (iblk0 V c 3 t) (iblk0 V c 4 t) (iblk0 V c 5 t) p q).trans ?_
  refine Eq.trans ?_ (congrArg (Sage.layerRelu (V c main_v22) (V c main_arg0) (V c main_v12) (V c main_v23) (V c main_v25) (V c main_v24)) (emb0_out t p q).symm)
  simp only [read0_A V c t, read0_X V c t, read0_S V c t, read0_Wl V c t, read0_B V c t, read0_Wr V c t]
  rfl

/-- Every node's row is in some point's block: node `r` in point `r / 5000`'s. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts0 t
  refine ⟨t, flush0_6 t, ?_⟩
  show i ∈ ((View.whole main_v26).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 64 ≤ (i 1).val ∧ (i 1).val < win0_6.index t (1 : Fin 2) * 64 + 64
    rw [e1]; omega

/-- The region's output array after its twenty points: the layer's function of the arrays as the region finds them. -/
theorem final0 (c : Dev nD) :
    (dat0 V c).arrAt 6 cfg0.N
      = Sage.layerRelu (V c main_v22) (V c main_arg0) (V c main_v12) (V c main_v23) (V c main_v25) (V c main_v24) :=
  (dat0 V c).arrAt_eq_of_cover 6 _ (fun t _ => flushed0_eq V c t) (cover0)

end Cert.KernelIdeal.Sage

end
-- ==== Proof.Blocks1.lean ====
/-
  The second region's output array as ONE function of the arrays the region finds.

  As in the first region the grid has twenty points of 5000 nodes each; the per-node windows (neighbour sums of the hidden
  features, the hidden features, the column of scales) and the output move with the point, the 64 × 32 weights and the bias row
  are one block.  What point `t` writes back is block `t` of the second layer's function of the whole arrays, the blocks tile the
  nodes, and the array ends holding that function.  Stated for any contents `V` at the region's entry.
-/
import proofs.«140291_j5686536700292_2_alg».proof.Proof.Gen.KernelIdeal.Frame
import proofs.«140291_j5686536700292_2_alg».proof.Proof.Combine
import proofs.«140291_j5686536700292_2_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sage

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- There are twenty grid points. -/
theorem lt20_1 (t : Fin cfg1.N) : t.val < 20 :=
  lt_of_lt_of_eq t.isLt N_1

/-- The node that row `p` of point `t`'s block is: the block starts at node 5000·t. -/
def row1 (t : Fin cfg1.N) (p : Fin 5000) : Fin 100000 :=
  ⟨5000 * t.val + p.val, by have := lt20_1 t; have := p.isLt; omega⟩

/-- The printed index maps over the grid: the three per-node windows and the output sit at block row `t`, column block 0;
    the weights and the bias are one block, always block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each window's block, read where the output's row says -/

/-- Row `p` of the block of neighbour sums is node `5000·t + p`'s row of the array. -/
theorem read1_A (c : Dev nD) (t : Fin cfg1.N) (p : Fin 5000) (k : Fin 64) :
    (iblk1 V c 0 t : Vec Ideal S5000x64 .f32) (ix2 p k) = (V c main_v36 : S100000x64.Idx → EReal) (ix2 (row1 t p) k) := by
  obtain ⟨e0, e1, -⟩ := idx_facts1 t
  show (V c main_v36 : S100000x64.Idx → EReal) (((cfg1.win 0).blk t).view.emb (ix2 p k)) = _
  refine congrArg (V c main_v36 : S100000x64.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- Row `p` of the block of the nodes' own features is node `5000·t + p`'s row of the array. -/
theorem read1_X (c : Dev nD) (t : Fin cfg1.N) (p : Fin 5000) (k : Fin 64) :
    (iblk1 V c 1 t : Vec Ideal S5000x64 .f32) (ix2 p k) = (V c main_v26 : S100000x64.Idx → EReal) (ix2 (row1 t p) k) := by
  obtain ⟨-, -, e0, e1, -⟩ := idx_facts1 t
  show (V c main_v26 : S100000x64.Idx → EReal) (((cfg1.win 1).blk t).view.emb (ix2 p k)) = _
  refine congrArg (V c main_v26 : S100000x64.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- Row `p` of the block of per-node scales is node `5000·t + p`'s entry of the column. -/
theorem read1_S (c : Dev nD) (t : Fin cfg1.N) (p : Fin 5000) :
    (iblk1 V c 2 t : Vec Ideal S5000x1 .f32) (ix2 p (0 : Fin 1)) = (V c main_v12 : S100000x1.Idx → EReal) (ix2 (row1 t p) (0 : Fin 1)) := by
  obtain ⟨-, -, -, -, e0, e1, -⟩ := idx_facts1 t
  show (V c main_v12 : S100000x1.Idx → EReal) (((cfg1.win 2).blk t).view.emb (ix2 p (0 : Fin 1))) = _
  refine congrArg (V c main_v12 : S100000x1.Idx → EReal) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- The neighbour weight's one block is the whole weight. -/
theorem read1_Wl (c : Dev nD) (t : Fin cfg1.N) (k : Fin 64) (q : Fin 32) :
    (iblk1 V c 3 t : Vec Ideal S64x32 .f32) (ix2 k q) = (V c main_v37 : S64x32.Idx → EReal) (ix2 k q) := by
  obtain ⟨-, -, -, -, -, -, e0, e1, -⟩ := idx_facts1 t
  show (V c main_v37 : S64x32.Idx → EReal) (((cfg1.win 3).blk t).view.emb (ix2 k q)) = _
  refine congrArg (V c main_v37 : S64x32.Idx → EReal) (funext fun a => Fin.ext ?_)
  match a with
  | ⟨0, _⟩ => show win1_3.index t (0 : Fin 2) * 64 + 1 * k.val = k.val; rw [e0]; omega
  | ⟨1, _⟩ => show win1_3.index t (1 : Fin 2) * 32 + 1 * q.val = q.val; rw [e1]; omega

/-- The bias row's one block is the whole row. -/
theorem read1_B (c : Dev nD) (t : Fin cfg1.N) (q : Fin 32) :
    (iblk1 V c 4 t : Vec Ideal S1x32 .f32) (ix2 (0 : Fin 1) q) = (V c main_v39 : S1x32.Idx → EReal) (ix2 (0 : Fin 1) q) := by
  obtain ⟨-, -, -, -, -, -, -, -, e0, e1, -⟩ := idx_facts1 t
  show (V c main_v39 : S1x32.Idx → EReal) (((cfg1.win 4).blk t).view.emb (ix2 (0 : Fin 1) q)) = _
  refine congrArg (V c main_v39 : S1x32.Idx → EReal) (funext fun a => Fin.ext ?_)
  match a with
  | ⟨0, _⟩ => show win1_4.index t (0 : Fin 2) * 1 + 1 * 0 = 0; rw [e0]
  | ⟨1, _⟩ => show win1_4.index t (1 : Fin 2) * 32 + 1 * q.val = q.val; rw [e1]; omega

/-- The own-feature weight's one block is the whole weight. -/
theorem read1_Wr (c : Dev nD) (t : Fin cfg1.N) (k : Fin 64) (q : Fin 32) :
    (iblk1 V c 5 t : Vec Ideal S64x32 .f32) (ix2 k q) = (V c main_v38 : S64x32.Idx → EReal) (ix2 k q) := by
  obtain ⟨-, -, -, -, -, -, -, -, -, -, e0, e1, -⟩ := idx_facts1 t
  show (V c main_v38 : S64x32.Idx → EReal) (((cfg1.win 5).blk t).view.emb (ix2 k q)) = _
  refine congrArg (V c main_v38 : S64x32.Idx → EReal) (funext fun a => Fin.ext ?_)
  match a with
  | ⟨0, _⟩ => show win1_5.index t (0 : Fin 2) * 64 + 1 * k.val = k.val; rw [e0]; omega
  | ⟨1, _⟩ => show win1_5.index t (1 : Fin 2) * 32 + 1 * q.val = q.val; rw [e1]; omega

/-- Entry `(p, q)` of point `t`'s output block sits at node `5000·t + p`, feature `q` of the output array. -/
theorem emb1_out (t : Fin cfg1.N) (p : Fin 5000) (q : Fin 32) :
    (((cfg1.win 6).blk t).view.emb (ix2 p q) : S100000x32.Idx) = ix2 (row1 t p) q := by
  obtain ⟨-, -, -, -, -, -, -, -, -, -, -, -, e0, e1⟩ := idx_facts1 t
  refine funext fun a => Fin.ext ?_
  match a with
  | ⟨0, _⟩ => show win1_6.index t (0 : Fin 2) * 5000 + 1 * p.val = 5000 * t.val + p.val; rw [e0]; omega
  | ⟨1, _⟩ => show win1_6.index t (1 : Fin 2) * 32 + 1 * q.val = q.val; rw [e1]; omega

/-! ## What a point writes back, and the whole array -/

/-- What point `t` writes back is block `t` of the layer's function of the arrays as the region finds them. -/
theorem flushed1_eq (c : Dev nD) (t : Fin cfg1.N) :
    (dat1 V c).flushed 6 t = ((cfg1.win 6).blk t).view.read (Elt Ideal)
      (Sage.layerLin (V c main_v36) (V c main_v26) (V c main_v12) (V c main_v37) (V c main_v39) (V c main_v38)) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S5000x1) hz1, View.ld_unit_zero (S := S64x32) hz1, View.ld_unit_zero (S := S1x32) hz1]
  funext j
  obtain ⟨p, q, rfl⟩ : ∃ (p : Fin 5000) (q : Fin 32), j = ix2 p q := ⟨j 0, j 1, eq_ix2 j⟩
  show k1_pay1 (F := Ideal) (iblk1 V c 0 t) (iblk1 V c 2 t) (iblk1 V c 1 t) (iblk1 V c 3 t) (iblk1 V c 4 t) (iblk1 V c 5 t) (ix2 p q)
    = Sage.layerLin (V c main_v36) (V c main_v26) (V c main_v12) (V c main_v37) (V c main_v39) (V c main_v38) (((cfg1.win 6).blk t).view.emb (ix2 p q))
  refine (pay1_apply (iblk1 V c 0 t) (iblk1 V c 2 t) (iblk1 V c 1 t) (iblk1 V c 3 t) (iblk1 V c 4 t) (iblk1 V c 5 t) p q).trans ?_
  refine Eq.trans ?_ (congrArg (Sage.layerLin (V c main_v36) (V c main_v26) (V c main_v12) (V c main_v37) (V c main_v39) (V c main_v38)) (emb1_out t p q).symm)
  simp only [read1_A V c t, read1_X V c t, read1_S V c t, read1_Wl V c t, read1_B V c t, read1_Wr V c t]
  rfl

/-- Every node's row is in some point's block: node `r` in point `r / 5000`'s. -/
theorem cover1 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts1 t
  refine ⟨t, flush1_6 t, ?_⟩
  show i ∈ ((View.whole main_v40).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 32 ≤ (i 1).val ∧ (i 1).val < win1_6.index t (1 : Fin 2) * 32 + 32
    rw [e1]; omega

/-- The region's output array after its twenty points: the layer's function of the arrays as the region finds them. -/
theorem final1 (c : Dev nD) :
    (dat1 V c).arrAt 6 cfg1.N
      = Sage.layerLin (V c main_v36) (V c main_v26) (V c main_v12) (V c main_v37) (V c main_v39) (V c main_v38) :=
  (dat1 V c).arrAt_eq_of_cover 6 _ (fun t _ => flushed1_eq V c t) (cover1)

end Cert.KernelIdeal.Sage

end
-- ==== Proof.Closed.lean ====
/-
  The two-layer network as ONE function of the eight argument arrays, in the shape the kernel computes it.

  From the edge list `x1` (row 0 the source nodes, row 1 the destination nodes) the shared host operations give the neighbour
  sums of a node-feature array (gather the source rows, add them into the destination rows) and the clipped degree
  `max(deg, 1)` of every node.  The kernel scales by the RECIPROCAL of the clipped degree, kept as a column `scale`:

      hidden = max(combine(sums(x0), x0, scale, W1_lᵀ, b1, W1_rᵀ), 0)
      output =     combine(sums(hidden), hidden, scale, W2_lᵀ, b2, W2_rᵀ)

  with `combine` the per-node step of the layer module.  The gather, the scatter-add, the index fix-up of negative sources, the
  degree count and the transposes are the reference's own stages, taken whole and never opened.
-/
import proofs.«140291_j5686536700292_2_alg».proof.Proof.Gen.ReferenceIdeal.Read
import proofs.«140291_j5686536700292_2_alg».proof.Proof.Gen.KernelIdeal
import proofs.«140291_j5686536700292_2_alg».proof.Proof.Layer

noncomputable section

namespace Sage

open Cert.ReferenceIdeal Cert.ReferenceIdeal.Read Idealize.ShloMosaic
open Cert.ReferenceIdeal.Facts₀ Cert.ReferenceIdeal.Facts

/-- The reciprocal of every node's clipped degree, as a column. -/
def scale (x1 : (⟨S2x1200000, .i32⟩ : BufTy).Contents (Elt Ideal)) : Arr 100000 1 :=
  shapeCast S100000x1
    (Host.divf (broadcastInDim S100000 ![] bcast_S_S100000 (constant (F := Ideal) S_ .f32 0x3F800000#32)) (val_main_v19 (F := Ideal) x1))
    Cert.KernelIdeal.Facts₀.shapeCasts_S100000_S100000x1

/-- The hidden features: the first layer over the arguments' neighbour sums. -/
def hidden (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : Arr 100000 64 :=
  layerRelu (val_main_v13 (F := Ideal) x0 x1) x0 (scale x1) (val_main_v23 (F := Ideal) x2)
    (shapeCast S1x64 x3 Cert.KernelIdeal.Facts₀.shapeCasts_S64_S1x64) (val_main_v28 (F := Ideal) x4)

/-- The neighbour sums of the hidden features: their source rows gathered and added into the destination rows. -/
def agg2 (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : (⟨S100000x64, .f32⟩ : BufTy).Contents (Elt Ideal) :=
  Host.scatterAdd (F := Ideal) (φ := .f32) scatter_S100000x64_S1200000x1_S1200000x64_1_0_0_1 (val_main_v39 (F := Ideal)) (val_main_v40 (F := Ideal) x1)
    ((Host.gather gather_S100000x64_S1200000x1_S1200000x64_1_0_n_n_0_1_164
        (hidden x0 x1 x2 x3 x4 : (⟨S100000x64, .f32⟩ : BufTy).Contents (Elt Ideal)) (val_main_v37 (F := Ideal) x1)
      : (⟨S1200000x64, .f32⟩ : BufTy).Contents (Elt Ideal)))

/-- The result: the second layer over the hidden features' neighbour sums. -/
def output (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S32x64, .f32⟩ : BufTy).Contents (Elt Ideal)) (x6 : (⟨S32, .f32⟩ : BufTy).Contents (Elt Ideal)) (x7 : (⟨S32x64, .f32⟩ : BufTy).Contents (Elt Ideal)) : Arr 100000 32 :=
  layerLin (agg2 x0 x1 x2 x3 x4) (hidden x0 x1 x2 x3 x4) (scale x1) (val_main_v51 (F := Ideal) x5)
    (shapeCast S1x32 x6 Cert.KernelIdeal.Facts₀.shapeCasts_S32_S1x32) (val_main_v56 (F := Ideal) x7)

end Sage

end
-- ==== Proof.KernelRun.lean ====
/-
  The idealized kernel's whole run, with its result named.

  The program is four stretches in order: the host operations that build the neighbour sums and the reciprocal degrees, the
  first combine region, the host operations that gather and sum the hidden features, the second combine region.  The contents
  of every unscoped buffer at each boundary form a chain `W0 … W4` from the launch memory: a host stretch maps the contents
  through its operations, a region replaces its arrays by what its write-backs leave.  Every weakly fair execution terminates
  without a fault with every unscoped buffer at `W4`: in particular the result array ends at `W4` of its buffer, and each
  argument array (written by no stretch) ends as launched.  The launch, the segments and the thread states are those of the
  frame claim; only the final reading differs, which here also reads the result buffer.
-/
import proofs.«140291_j5686536700292_2_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's contents
    of its buffer and the eight argument arrays end as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.KernelValue.lean ====
/-
  The idealized kernel's result, as the closed form of the eight argument arrays.

  Reading the boundary contents back from the end: the result buffer after the second region is the second layer's function
  of the arrays that region is entered with; those are what the middle host operations make of the first region's exit
  contents (the hidden features gathered at the sources and summed into the destinations, the transposed second weights, the
  bias as a row) or buffers they do not touch (the hidden features, the column of reciprocal degrees); the first region's
  output is the first layer's function of its entry arrays; and those are what the first host operations make of the launch
  memory — the same stages, in the same order, as the reference's, so each is named by the reference's stage of the arguments.
-/
import proofs.«140291_j5686536700292_2_alg».proof.Proof.Gen.KernelIdeal.Frame
import proofs.«140291_j5686536700292_2_alg».proof.Proof.Blocks0
import proofs.«140291_j5686536700292_2_alg».proof.Proof.Blocks1
import proofs.«140291_j5686536700292_2_alg».proof.Proof.Closed
import proofs.«140291_j5686536700292_2_alg».proof.Proof.KernelRun
import Idealize.ShloMosaic.Lib.StableHlo.Run

set_option maxRecDepth 16384

noncomputable section

namespace Cert.KernelIdeal.Sage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the first host operations -/

/-- The neighbour sums of the input features. -/
theorem W1_agg (c : Dev nD) : W1 m ρ c (Proc.devRef .tc main_v22) = val_main_v13 (F := Ideal) (m ((c : Thread nD τ).loc main_arg0)) (m ((c : Thread nD τ).loc main_arg1)) := by
  show StableHlo.after hostOps0 (W0 m ρ c) (Proc.devRef .tc main_v22) = _
  after_results_simp
  rfl

/-- The column of reciprocal clipped degrees. -/
theorem W1_scale (c : Dev nD) : W1 m ρ c (Proc.devRef .tc main_v12) = _root_.Sage.scale (m ((c : Thread nD τ).loc main_arg1)) := by
  show StableHlo.after hostOps0 (W0 m ρ c) (Proc.devRef .tc main_v12) = _
  after_results_simp
  rfl

/-- The first neighbour weight, transposed. -/
theorem W1_wl (c : Dev nD) : W1 m ρ c (Proc.devRef .tc main_v23) = val_main_v23 (F := Ideal) (m ((c : Thread nD τ).loc main_arg2)) := by
  show StableHlo.after hostOps0 (W0 m ρ c) (Proc.devRef .tc main_v23) = _
  after_results_simp
  rfl

/-- The first bias as a row. -/
theorem W1_b (c : Dev nD) : W1 m ρ c (Proc.devRef .tc main_v25) = shapeCast S1x64 (m ((c : Thread nD τ).loc main_arg3)) shapeCasts_S64_S1x64 := by
  show StableHlo.after hostOps0 (W0 m ρ c) (Proc.devRef .tc main_v25) = _
  after_results_simp
  rfl

/-- The first own-feature weight, transposed. -/
theorem W1_wr (c : Dev nD) : W1 m ρ c (Proc.devRef .tc main_v24) = val_main_v28 (F := Ideal) (m ((c : Thread nD τ).loc main_arg4)) := by
  show StableHlo.after hostOps0 (W0 m ρ c) (Proc.devRef .tc main_v24) = _
  after_results_simp
  rfl

/-- The input features, untouched. -/
theorem W1_x (c : Dev nD) : W1 m ρ c (Proc.devRef .tc main_arg0) = (m ((c : Thread nD τ).loc main_arg0)) := by
  show StableHlo.after hostOps0 (W0 m ρ c) (Proc.devRef .tc main_arg0) = _
  after_results_simp

/-- The source nodes. -/
theorem W1_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The destination nodes. -/
theorem W1_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The second neighbour weight, untouched. -/
theorem W1_a5 (c : Dev nD) : W1 m ρ c (Proc.devRef .tc main_arg5) = (m ((c : Thread nD τ).loc main_arg5)) := by
  show StableHlo.after hostOps0 (W0 m ρ c) (Proc.devRef .tc main_arg5) = _
  after_results_simp

/-- The second bias, untouched. -/
theorem W1_a6 (c : Dev nD) : W1 m ρ c (Proc.devRef .tc main_arg6) = (m ((c : Thread nD τ).loc main_arg6)) := by
  show StableHlo.after hostOps0 (W0 m ρ c) (Proc.devRef .tc main_arg6) = _
  after_results_simp

/-- The second own-feature weight, untouched. -/
theorem W1_a7 (c : Dev nD) : W1 m ρ c (Proc.devRef .tc main_arg7) = (m ((c : Thread nD τ).loc main_arg7)) := by
  show StableHlo.after hostOps0 (W0 m ρ c) (Proc.devRef .tc main_arg7) = _
  after_results_simp

/-! ## After the first region -/

/-- The first region's output: the hidden features. -/
theorem W2_hidden (c : Dev nD) : W2 m ρ c (Proc.devRef .tc main_v26) = _root_.Sage.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ?_
  refine (final0 (V1 m ρ) c).trans ?_
  show _root_.Sage.layerRelu (W1 m ρ c (Proc.devRef .tc main_v22)) (W1 m ρ c (Proc.devRef .tc main_arg0)) (W1 m ρ c (Proc.devRef .tc main_v12))
      (W1 m ρ c (Proc.devRef .tc main_v23)) (W1 m ρ c (Proc.devRef .tc main_v25)) (W1 m ρ c (Proc.devRef .tc main_v24)) = _
  rw [W1_agg, W1_x, W1_scale, W1_wl, W1_b, W1_wr]
  rfl

/-- The column of reciprocal degrees is an input of the first region: it leaves it as it entered. -/
theorem W2_scale (c : Dev nD) : W2 m ρ c (Proc.devRef .tc main_v12) = _root_.Sage.scale (m ((c : Thread nD τ).loc main_arg1)) :=
  ((W2_arr m ρ c 2).trans (((dat0 (V1 m ρ) c).arrAt_in 2 rfl _).trans (A_eq0 (V1 m ρ) c 2))).trans (W1_scale m ρ c)

theorem W2_src (c : Dev nD) : W2 m ρ c (Proc.devRef .tc main_v1) = val_main_v1 (F := Ideal) (m ((c : Thread nD τ).loc main_arg1)) :=
  (W2_of_ne m ρ c main_v1 (by decide)).trans (W1_src m ρ c)

theorem W2_dst (c : Dev nD) : W2 m ρ c (Proc.devRef .tc main_v3) = val_main_v3 (F := Ideal) (m ((c : Thread nD τ).loc main_arg1)) :=
  (W2_of_ne m ρ c main_v3 (by decide)).trans (W1_dst m ρ c)

theorem W2_a5 (c : Dev nD) : W2 m ρ c (Proc.devRef .tc main_arg5) = (m ((c : Thread nD τ).loc main_arg5)) :=
  (W2_of_ne m ρ c main_arg5 (by decide)).trans (W1_a5 m ρ c)

theorem W2_a6 (c : Dev nD) : W2 m ρ c (Proc.devRef .tc main_arg6) = (m ((c : Thread nD τ).loc main_arg6)) :=
  (W2_of_ne m ρ c main_arg6 (by decide)).trans (W1_a6 m ρ c)

theorem W2_a7 (c : Dev nD) : W2 m ρ c (Proc.devRef .tc main_arg7) = (m ((c : Thread nD τ).loc main_arg7)) :=
  (W2_of_ne m ρ c main_arg7 (by decide)).trans (W1_a7 m ρ c)

/-! ## After the middle host operations -/

/-- The neighbour sums of the hidden features. -/
theorem W3_agg (c : Dev nD) : W3 m ρ c (Proc.devRef .tc main_v36) = _root_.Sage.agg2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v36) = _
  after_results_simp
  rw [W2_src, W2_dst, W2_hidden]
  rfl

/-- The hidden features, untouched by the middle operations. -/
theorem W3_hidden (c : Dev nD) : W3 m ρ c (Proc.devRef .tc main_v26) = _root_.Sage.hidden (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp
  exact W2_hidden m ρ c

/-- The column of reciprocal degrees, untouched by the middle operations. -/
theorem W3_scale (c : Dev nD) : W3 m ρ c (Proc.devRef .tc main_v12) = _root_.Sage.scale (m ((c : Thread nD τ).loc main_arg1)) := by
  show StableHlo.after hostOps1 (W2 m ρ c) (Proc.devRef .tc main_v12) = _
  after_results_simp
  exact W2_scale m ρ c

/-- The second neighbour weight, transposed. -/
theorem W3_wl (c : Dev nD) : W3 m ρ c (Proc.devRef .tc main_v37) = val_main_v51 (F := Ideal) (m ((c : Thread nD τ).loc main_arg5)) := by
  show StableHlo.after hostOps1 (W2 m ρ c) (Proc.devRef .tc main_v37) = _
  after_results_simp
  rw [W2_a5]
  rfl

/-- The second bias as a row. -/
theorem W3_b (c : Dev nD) : W3 m ρ c (Proc.devRef .tc main_v39) = shapeCast S1x32 (m ((c : Thread nD τ).loc main_arg6)) shapeCasts_S32_S1x32 := by
  show StableHlo.after hostOps1 (W2 m ρ c) (Proc.devRef .tc main_v39) = _
  after_results_simp
  rw [W2_a6]
  rfl

/-- The second own-feature weight, transposed. -/
theorem W3_wr (c : Dev nD) : W3 m ρ c (Proc.devRef .tc main_v38) = val_main_v56 (F := Ideal) (m ((c : Thread nD τ).loc main_arg7)) := by
  show StableHlo.after hostOps1 (W2 m ρ c) (Proc.devRef .tc main_v38) = _
  after_results_simp
  rw [W2_a7]
  rfl

/-! ## After the second region -/

/-- The result buffer at the end of the run is the closed form of the launch arrays. -/
theorem result_eq (c : Dev nD) : W4 m ρ c (Proc.devRef .tc main_v40) = _root_.Sage.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ?_
  refine (final1 (V3 m ρ) c).trans ?_
  show _root_.Sage.layerLin (W3 m ρ c (Proc.devRef .tc main_v36)) (W3 m ρ c (Proc.devRef .tc main_v26)) (W3 m ρ c (Proc.devRef .tc main_v12))
      (W3 m ρ c (Proc.devRef .tc main_v37)) (W3 m ρ c (Proc.devRef .tc main_v39)) (W3 m ρ c (Proc.devRef .tc main_v38)) = _
  rw [W3_agg, W3_hidden, W3_scale, W3_wl, W3_b, W3_wr]
  rfl

/-- The run, read: every weakly fair execution terminates without a fault, the result array at the closed form of the
    argument arrays, the arguments unchanged. -/
theorem run : θ_run defs (onTc (τ := τ) (main (F := Ideal))) ⟨m, fun _ => 0, ρ⟩ (fun r => ∀ c : Dev nD,
      r.2.mem ((c.tc : Thread nD τ).loc main_v40) = _root_.Sage.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result (F := Ideal) m ρ)

end Cert.KernelIdeal.Sage

end
-- ==== Proof.RefBridge.lean ====
/-
  The reference computes the same function.

  At a node `r` the reference divides each neighbour sum by the clipped degree `d = max(deg r, 1)` where the kernel's form
  multiplies it by the column entry `1 / d`; `d ≥ 1` is not 0, so the two agree for every value of the sum, finite or not.
  The matrix products are the same sums over the 64 input features, the bias is added in the same place (once read through a
  reshape, once through two broadcasts), and the first layer clips below at 0 in both.  The reference counts the degrees a
  second time for the second layer, by the same operations on the same destinations: the same array.  The neighbour sums of
  the hidden features are the same gather and scatter-add of equal arrays.
-/
import proofs.«140291_j5686536700292_2_alg».proof.Proof.Closed
import proofs.«140291_j5686536700292_2_alg».proof.Proof.LibUnitAxisLayout
import Idealize.ShloMosaic.Lib.ValueLayout

noncomputable section

namespace Sage

open Cert.ReferenceIdeal Cert.ReferenceIdeal.Read Idealize.ShloMosaic Idealize.ShloMosaic.ValueIdx
open Cert.ReferenceIdeal.Facts₀ Cert.ReferenceIdeal.Facts

/-! ## The degrees -/

/-- The array of ones the degrees are clipped against, and that the kernel divides, is 1 at every node. -/
theorem ones_apply (r : Fin 100000) :
    (broadcastInDim S100000 ![] bcast_S_S100000 (constant (F := Ideal) S_ .f32 0x3F800000#32) : FVec Ideal S100000 .f32) (ix1 r) = 1 := by
  rw [broadcastInDim_apply _ bcast_S_S100000 _ (ix1 r) ix0 (fun a => a.elim0)]
  exact ofBits_one_f32

/-- The clipped degree of node `r`: the larger of its degree and 1. -/
theorem clip_apply (x1 : (⟨S2x1200000, .i32⟩ : BufTy).Contents (Elt Ideal)) (r : Fin 100000) :
    val_main_v19 (F := Ideal) x1 (ix1 r) = max (val_main_v17 (F := Ideal) x1 (ix1 r)) 1 := by
  rw [val_main_v19_apply, val_main_v18_apply, val_main_cst_3_apply]
  show max _ (Ideal.ofBits .f32 0x3F800000#32) = _
  rw [ofBits_one_f32]

/-- The second count of the degrees is the first: ones added into the same destinations from zeros. -/
theorem deg2_eq (x1 : (⟨S2x1200000, .i32⟩ : BufTy).Contents (Elt Ideal)) :
    val_main_v45 (F := Ideal) x1 = val_main_v17 (F := Ideal) x1 := by
  unfold val_main_v45 val_main_v17 val_main_v43 val_main_v15 val_main_v44 val_main_v16 val_main_v42 val_main_v14
    val_main_cst_8 val_main_cst_2 val_main_cst_7 val_main_cst_1
  rfl

/-- The clipped degree of node `r` as the second layer reads it. -/
theorem clip2_apply (x1 : (⟨S2x1200000, .i32⟩ : BufTy).Contents (Elt Ideal)) (r : Fin 100000) :
    val_main_v47 (F := Ideal) x1 (ix1 r) = max (val_main_v17 (F := Ideal) x1 (ix1 r)) 1 := by
  rw [val_main_v47_apply, val_main_v46_apply, val_main_cst_9_apply, deg2_eq]
  show max _ (Ideal.ofBits .f32 0x3F800000#32) = _
  rw [ofBits_one_f32]

/-- The kernel's column at node `r`: the reciprocal of the clipped degree. -/
theorem scale_apply (x1 : (⟨S2x1200000, .i32⟩ : BufTy).Contents (Elt Ideal)) (r : Fin 100000) :
    scale x1 (ix2 r (0 : Fin 1)) = Ideal.div 1 (max (val_main_v17 (F := Ideal) x1 (ix1 r)) 1) := by
  unfold scale
  refine (shapeCast_a_a1_apply _ _ r (0 : Fin 1)).trans ?_
  rw [hostDivf_apply, ones_apply, clip_apply]

/-! ## The first layer -/

/-- The reference's mean at node `r`, feature `k`: the neighbour sum divided by the clipped degree. -/
theorem mean_apply (x0 : (⟨S100000x64, .f32⟩ : BufTy).Contents (Elt Ideal)) (x1 : (⟨S2x1200000, .i32⟩ : BufTy).Contents (Elt Ideal))
    (r : Fin 100000) (k : Fin 64) :
    val_main_v22 (F := Ideal) x0 x1 (ix2 r k)
      = Ideal.div (val_main_v13 (F := Ideal) x0 x1 (ix2 r k)) (max (val_main_v17 (F := Ideal) x1 (ix1 r)) 1) := by
  have e : idx_main_v20 (idx_main_v21 (ix2 r k)) = ix1 r := funext fun a => Fin.ext (by match a with | ⟨0, _⟩ => rfl)
  rw [val_main_v22_apply, val_main_v21_apply, val_main_v20_apply, e, clip_apply]
  rfl

/-- The first layer of the reference is the hidden features of the closed form. -/
theorem hidden_eq (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v31 (F := Ideal) x0 x1 x2 x3 x4 = hidden x0 x1 x2 x3 x4 := by
  funext i
  obtain ⟨r, q, rfl⟩ : ∃ (r : Fin 100000) (q : Fin 64), i = ix2 r q := ⟨i 0, i 1, eq_ix2 i⟩
  have el : ∀ k : Fin 64, lidx_main_v24 (ix2 r q) k = ix2 r k := fun k => funext fun a => Fin.ext (by match a with | ⟨0, _⟩ => rfl | ⟨1, _⟩ => rfl)
  have er : ∀ k : Fin 64, ridx_main_v24 (ix2 r q) k = ix2 k q := fun k => funext fun a => Fin.ext (by match a with | ⟨0, _⟩ => rfl | ⟨1, _⟩ => rfl)
  have el' : ∀ k : Fin 64, lidx_main_v29 (ix2 r q) k = ix2 r k := fun k => funext fun a => Fin.ext (by match a with | ⟨0, _⟩ => rfl | ⟨1, _⟩ => rfl)
  have er' : ∀ k : Fin 64, ridx_main_v29 (ix2 r q) k = ix2 k q := fun k => funext fun a => Fin.ext (by match a with | ⟨0, _⟩ => rfl | ⟨1, _⟩ => rfl)
  have eb : idx_main_v25 (idx_main_v26 (ix2 r q)) = ix1 q := funext fun a => Fin.ext (by match a with | ⟨0, _⟩ => rfl)
  rw [val_main_v31_apply, val_main_v30_apply, val_main_v27_apply, val_main_v24_apply, val_main_v26_apply, val_main_v25_apply,
    val_main_v29_apply, val_main_call0_v0_apply, val_main_call0_cst_apply, eb]
  simp only [el, er, el', er', mean_apply]
  unfold hidden
  rw [layerRelu_apply]
  unfold combineAt
  rw [scale_apply, shapeCast_a_1a_apply]
  simp only [Ideal.maximumf_def, Ideal.addf_def, Ideal.ofBits_def, Ideal.ofBits_zero_f32]
  refine congrArg (max · 0) (congrArg₂ (· + ·) (congrArg₂ (· + ·) (Finset.sum_congr rfl fun k _ => ?_) rfl) rfl)
  rw [mul_one_div _ _ (max_one_ne_zero _)]

/-! ## The second layer -/

/-- The neighbour sums of the reference's hidden features are those of the closed form's. -/
theorem agg2_eq (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v41 (F := Ideal) x0 x1 x2 x3 x4 = agg2 x0 x1 x2 x3 x4 := by
  unfold val_main_v41 val_main_v38 agg2
  rw [hidden_eq]

/-- The reference's second mean at node `r`, feature `k`. -/
theorem mean2_apply (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (k : Fin 64) :
    val_main_v50 (F := Ideal) x0 x1 x2 x3 x4 (ix2 r k)
      = Ideal.div (agg2 x0 x1 x2 x3 x4 (ix2 r k)) (max (val_main_v17 (F := Ideal) x1 (ix1 r)) 1) := by
  have e : idx_main_v48 (idx_main_v49 (ix2 r k)) = ix1 r := funext fun a => Fin.ext (by match a with | ⟨0, _⟩ => rfl)
  rw [val_main_v50_apply, val_main_v49_apply, val_main_v48_apply, e, clip2_apply, agg2_eq]
  rfl

/-- The reference's result is the closed form's. -/
theorem output_eq (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S32x64, .f32⟩ : BufTy).Contents (Elt Ideal)) (x6 : (⟨S32, .f32⟩ : BufTy).Contents (Elt Ideal)) (x7 : (⟨S32x64, .f32⟩ : BufTy).Contents (Elt Ideal)) :
    val_main_v58 (F := Ideal) x0 x1 x2 x3 x4 x5 x6 x7 = output x0 x1 x2 x3 x4 x5 x6 x7 := by
  funext i
  obtain ⟨r, q, rfl⟩ : ∃ (r : Fin 100000) (q : Fin 32), i = ix2 r q := ⟨i 0, i 1, eq_ix2 i⟩
  have el : ∀ k : Fin 64, lidx_main_v52 (ix2 r q) k = ix2 r k := fun k => funext fun a => Fin.ext (by match a with | ⟨0, _⟩ => rfl | ⟨1, _⟩ => rfl)
  have er : ∀ k : Fin 64, ridx_main_v52 (ix2 r q) k = ix2 k q := fun k => funext fun a => Fin.ext (by match a with | ⟨0, _⟩ => rfl | ⟨1, _⟩ => rfl)
  have el' : ∀ k : Fin 64, lidx_main_v57 (ix2 r q) k = ix2 r k := fun k => funext fun a => Fin.ext (by match a with | ⟨0, _⟩ => rfl | ⟨1, _⟩ => rfl)
  have er' : ∀ k : Fin 64, ridx_main_v57 (ix2 r q) k = ix2 k q := fun k => funext fun a => Fin.ext (by match a with | ⟨0, _⟩ => rfl | ⟨1, _⟩ => rfl)
  have eb : idx_main_v53 (idx_main_v54 (ix2 r q)) = ix1 q := funext fun a => Fin.ext (by match a with | ⟨0, _⟩ => rfl)
  rw [val_main_v58_apply, val_main_v55_apply, val_main_v52_apply, val_main_v54_apply, val_main_v53_apply, val_main_v57_apply, eb]
  simp only [el, er, el', er', mean2_apply, hidden_eq]
  unfold output
  rw [layerLin_apply]
  unfold combineAt
  rw [scale_apply, shapeCast_a_1a_apply]
  simp only [Ideal.addf_def]
  refine congrArg₂ (· + ·) (congrArg₂ (· + ·) (Finset.sum_congr rfl fun k _ => ?_) rfl) rfl
  rw [mul_one_div _ _ (max_one_ne_zero _)]

end Sage

end
-- ==== Proof.lean ====
/-
  A two-layer mean-aggregating graph network on 100000 nodes and 1200000 edges: the kernel against its reference, over the
  extended reals.

  Each layer is  out = mean_neighbours(h) · W_lᵀ + b + h · W_rᵀ  (clipped below at 0 after the first layer), the mean being the
  sum of the source rows of a node's incoming edges over  d = max(degree, 1).  The reference divides the neighbour sums by `d`.
  The kernel computes `1 / d` once, as a column, and inside each of its two regions (twenty blocks of 5000 nodes) multiplies the
  block of neighbour sums by that column before the two matrix products.  On the extended reals  a · (1 / d) = a / d  for every
  `a` as soon as `d ≠ 0`, and `d ≥ 1`: so the two programs compute one function, and no finiteness of the inputs is used.

  The idealized kernel's run, with its result array read back through the two regions and the host operations between them,
  ends at that function of the arguments; the reference's run ends at its own composed stages, which are the same
  function; the two word-level and idealized kernel frames are the run of the same four stretches; the idealization rewrote
  nothing, so there is nothing to preserve.
-/
import proofs.«140291_j5686536700292_2_alg».proof.Defs
import proofs.«140291_j5686536700292_2_alg».proof.Proof.Gen.Kernel
import proofs.«140291_j5686536700292_2_alg».proof.Proof.Gen.Kernel.Skeleton
import proofs.«140291_j5686536700292_2_alg».proof.Proof.Gen.Kernel.Launch
import proofs.«140291_j5686536700292_2_alg».proof.Proof.Gen.Kernel.Points
import proofs.«140291_j5686536700292_2_alg».proof.Proof.Gen.Kernel.Frame
import proofs.«140291_j5686536700292_2_alg».proof.Proof.Gen.KernelIdeal
import proofs.«140291_j5686536700292_2_alg».proof.Proof.Gen.KernelIdeal.Skeleton
import proofs.«140291_j5686536700292_2_alg».proof.Proof.Gen.KernelIdeal.Launch
import proofs.«140291_j5686536700292_2_alg».proof.Proof.Gen.KernelIdeal.Points
import proofs.«140291_j5686536700292_2_alg».proof.Proof.Gen.KernelIdeal.Frame
import proofs.«140291_j5686536700292_2_alg».proof.Proof.Gen.ReferenceIdeal
import proofs.«140291_j5686536700292_2_alg».proof.Proof.Gen.ReferenceIdeal.Run
import proofs.«140291_j5686536700292_2_alg».proof.Proof.Gen.ReferenceIdeal.Read
import proofs.«140291_j5686536700292_2_alg».proof.Proof.Gen.Pre_finite_inputs
import proofs.«140291_j5686536700292_2_alg».proof.Proof.KernelValue
import proofs.«140291_j5686536700292_2_alg».proof.Proof.RefBridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the closed form of the
    arguments: the kernel by its run read back, the reference because its composed stages are that function. -/
theorem algebraic : Cert.algebraic_KernelIdeal_ReferenceIdeal := by
  intro m ρ m' ρ' _ hagree
  refine ⟨fun c => Sage.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v58_eq, Sage.output_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
